-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S64x1024 : Shape := ⟨2, ![64, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S64x2048x1024 .f32) (main_arg1 : FVec F S64x1024 .f32) (main_arg2 : FVec F S1024x512 .f32) (main_arg3 : FVec F S512 .f32) (main_arg4 : FVec F S1024x512 .f32) (main_arg5 : FVec F S512 .f32) (main_arg6 : FVec F S512x1 .f32) (main_arg7 : FVec F S1 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S64x2048x1024 : Shape := ⟨3, ![64, 2048, 1024]⟩
abbrev S64x1024 : Shape := ⟨2, ![64, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S64x512 : Shape := ⟨2, ![64, 512]⟩
abbrev S1x512 : Shape := ⟨2, ![1, 512]⟩
abbrev S64x1x512 : Shape := ⟨3, ![64, 1, 512]⟩
abbrev S1x1 : Shape := ⟨2, ![1, 1]⟩
abbrev S64x2048x1 : Shape := ⟨3, ![64, 2048, 1]⟩
abbrev S64x1x1024 : Shape := ⟨3, ![64, 1, 1024]⟩
abbrev S1x2048x1024 : Shape := ⟨3, ![1, 2048, 1024]⟩
abbrev S1x1x512 : Shape := ⟨3, ![1, 1, 512]⟩
abbrev S1x2048x1 : Shape := ⟨3, ![1, 2048, 1]⟩
abbrev S1x1x1024 : Shape := ⟨3, ![1, 1, 1024]⟩
abbrev S2048x1024 : Shape := ⟨2, ![2048, 1024]⟩
abbrev S2048x512 : Shape := ⟨2, ![2048, 512]⟩
abbrev S2048x1 : Shape := ⟨2, ![2048, 1]⟩
abbrev S1x2048 : Shape := ⟨2, ![1, 2048]⟩
abbrev S1x1024 : Shape := ⟨2, ![1, 1024]⟩

abbrev nBuf : Space → Nat
  | .hbm => 18
  | .vmem => 12
  | .smem => 0
  | _ => 0

abbrev bufTy : (tb : Table) → Fin (tcTables nBuf tb) → BufTy
  | .hbm, ⟨0, _⟩ => ⟨S64x2048x1024, .f32⟩
  | .hbm, ⟨1, _⟩ => ⟨S64x1024, .f32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S64x512, .f32⟩
  | .hbm, ⟨12, _⟩ => ⟨S64x1x512, .f32⟩
  | .hbm, ⟨13, _⟩ => ⟨S1x512, .f32⟩
  | .hbm, ⟨14, _⟩ => ⟨S1x1, .f32⟩
  | .hbm, ⟨15, _⟩ => ⟨S64x2048x1, .f32⟩
  | .hbm, ⟨16, _⟩ => ⟨S64x1x1024, .f32⟩
  | .hbm, ⟨17, _⟩ => ⟨S64x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x512, .f32⟩
  | .local _ .vmem, ⟨3, _⟩ => ⟨S1x1x512, .f32⟩
  | .local _ .vmem, ⟨4, _⟩ => ⟨S1024x512, .f32⟩
  | .local _ .vmem, ⟨5, _⟩ => ⟨S512x1, .f32⟩
  | .local _ .vmem, ⟨6, _⟩ => ⟨S1x512, .f32⟩
  | .local _ .vmem, ⟨7, _⟩ => ⟨S1x1, .f32⟩
  | .local _ .vmem, ⟨8, _⟩ => ⟨S1x2048x1, .f32⟩
  | .local _ .vmem, ⟨9, _⟩ => ⟨S1x2048x1, .f32⟩
  | .local _ .vmem, ⟨10, _⟩ => ⟨S1x1x1024, .f32⟩
  | .local _ .vmem, ⟨11, _⟩ => ⟨S1x1x1024, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  shapeCasts_S64x512_S64x1x512 : S64x512.ShapeCasts S64x1x512
  shapeCasts_S512_S1x512 : S512.ShapeCasts S1x512
  shapeCasts_S1_S1x1 : S1.ShapeCasts S1x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  reduces_S2048x1_S1 : S2048x1.Reduces [0] S1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  transposes_S2048x1_p1_0_S1x2048 : S2048x1.Transposes [1, 0] S1x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S64x1x1024_S64x1024 : S64x1x1024.ShapeCasts S64x1024
  dot_S64x1024_S1024x512_S64x512_1_0_0_1_n_n_wf : DotDims.WF S64x1024 S1024x512 S64x512 [1] [0] [0] [1] [] []
  dot_S2048x1024_S1024x512_S2048x512_1_0_0_1_n_n_wf : DotDims.WF S2048x1024 S1024x512 S2048x512 [1] [0] [0] [1] [] []
  dot_S2048x512_S512x1_S2048x1_1_0_0_1_n_n_wf : DotDims.WF S2048x512 S512x1 S2048x1 [1] [0] [0] [1] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S64x2048x1024.size a
  hwx0_0 : ∀ i : grid0.Coords, EltTy.bits .f32 = 32 ∨ (Rect.block (s := S64x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1.size a ≤ S64x2048x1.size a
  hwx0_6 : ∀ i : grid0.Coords, EltTy.bits .f32 = 32 ∨ (Rect.block (s := S64x2048x1) S1x2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S64x1x1024.size a
  hwx0_7 : ∀ i : grid0.Coords, EltTy.bits .f32 = 32 ∨ (Rect.block (s := S64x1x1024) S1x1x1024.size (cc0_transform_7 i) (hinb0_7 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x2048x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x2048x1024 : Shape := ⟨3, ![64, 2048, 1024]⟩
abbrev S64x1024 : Shape := ⟨2, ![64, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S64x512 : Shape := ⟨2, ![64, 512]⟩
abbrev S1x512 : Shape := ⟨2, ![1, 512]⟩
abbrev S64x2048x512 : Shape := ⟨3, ![64, 2048, 512]⟩
abbrev S1x1x512 : Shape := ⟨3, ![1, 1, 512]⟩
abbrev S64x1x512 : Shape := ⟨3, ![64, 1, 512]⟩
abbrev S64x2048x1 : Shape := ⟨3, ![64, 2048, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S64x1024, .f32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S64x512, .f32⟩
  | .hbm, ⟨12, _⟩ => ⟨S64x2048x512, .f32⟩
  | .hbm, ⟨13, _⟩ => ⟨S1x1x512, .f32⟩
  | .hbm, ⟨14, _⟩ => ⟨S64x2048x512, .f32⟩
  | .hbm, ⟨15, _⟩ => ⟨S64x2048x512, .f32⟩
  | .hbm, ⟨16, _⟩ => ⟨S64x1x512, .f32⟩
  | .hbm, ⟨17, _⟩ => ⟨S64x2048x512, .f32⟩
  | .hbm, ⟨18, _⟩ => ⟨S64x2048x512, .f32⟩
  | .hbm, ⟨19, _⟩ => ⟨S64x2048x512, .f32⟩
  | .hbm, ⟨20, _⟩ => ⟨S64x2048x1, .f32⟩
  | .hbm, ⟨21, _⟩ => ⟨S1x1x1, .f32⟩
  | .hbm, ⟨22, _⟩ => ⟨S64x2048x1, .f32⟩
  | .hbm, ⟨23, _⟩ => ⟨S64x2048x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x2048x1, .f32⟩
  | .hbm, ⟨31, _⟩ => ⟨S64x2048x1, .f32⟩
  | .hbm, ⟨32, _⟩ => ⟨S64x2048x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x2048x1, .f32⟩
  | .hbm, ⟨37, _⟩ => ⟨S64x2048x1, .f32⟩
  | .hbm, ⟨38, _⟩ => ⟨S64x2048x1024, .f32⟩
  | .hbm, ⟨39, _⟩ => ⟨S64x2048x1024, .f32⟩
  | .hbm, ⟨40, _⟩ => ⟨S_, .f32⟩
  | .hbm, ⟨41, _⟩ => ⟨S64x1024, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x1024_0_1_2 : S64x2048x1.BroadcastsInDim S64x2048x1024 (![0, 1, 2] : Fin 3 → Fin S64x2048x1024.rank)
  reducesTo_S64x2048x1024_S64x1024_d1 : S64x2048x1024.ReducesTo [1] S64x1024
  dot_S64x1024_S1024x512_S64x512_1_0_0_1_n_n_wf : DotDims.WF S64x1024 S1024x512 S64x512 [1] [0] [0] [1] [] []
  dot_S64x2048x1024_S1024x512_S64x2048x512_2_0_01_1_n_n_wf : DotDims.WF S64x2048x1024 S1024x512 S64x2048x512 [2] [0] [0, 1] [1] [] []
  dot_S64x2048x512_S512x1_S64x2048x1_2_0_01_1_n_n_wf : DotDims.WF S64x2048x512 S512x1 S64x2048x1 [2] [0] [0, 1] [1] [] []

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x2048x1024_S1024x512_S64x2048x512_2_0_01_1_n_n : DotDims S64x2048x1024 S1024x512 S64x2048x512 where
  lhsContracting := [2]
  rhsContracting := [0]
  lhsNonContracting := [0, 1]
  rhsNonContracting := [1]
  lhsBatch := []
  rhsBatch := []
  wf := dot_S64x2048x1024_S1024x512_S64x2048x512_2_0_01_1_n_n_wf
def dot_S64x2048x512_S512x1_S64x2048x1_2_0_01_1_n_n : DotDims S64x2048x512 S512x1 S64x2048x1 where
  lhsContracting := [2]
  rhsContracting := [0]
  lhsNonContracting := [0, 1]
  rhsNonContracting := [1]
  lhsBatch := []
  rhsBatch := []
  wf := dot_S64x2048x512_S512x1_S64x2048x1_2_0_01_1_n_n_wf

class Facts : Prop extends Facts₀ where

variable [Facts]
-- ==== Proof.Spec.lean ====
/-
  Additive-attention pooling over regions, as one function of its arguments on the extended reals.

  For a batch entry b, the query is projected once, qp b = q b · Wy + by. Each of the 2048 regions r of
  the entry gets a score (its "logit"): the hidden layer tanh (v b r · Wx + bx + qp b), a vector of 512
  entries, is contracted with the column Wa and shifted by ba. The scores of one entry are turned into
  weights by the softmax in its stable form: subtract the largest score, exponentiate, divide by the sum
  of the exponentials. The pooled vector of the entry is the weighted sum of its regions' feature
  vectors. Both programs compute exactly these expressions, in this association; nothing below needs an
  algebraic law of the extended reals.
-/
import Idealize.ShloMosaic.PureOps.Ideal
import Idealize.ShloMosaic.Lib.ValueIdx

noncomputable section

open scoped BigOperators

namespace Cert.AttnPool

open Idealize.ShloMosaic Idealize.ShloMosaic.ValueIdx

/-- What the running maximum of a softmax starts from: minus infinity, as its f32 pattern. -/
abbrev negInf : EReal := Ideal.ofBits .f32 0xFF800000#32

/-- The projected query of batch entry `b`, at hidden unit `h`: (q b · Wy) h + by h. -/
def proj (q : Fin 64 → Fin 1024 → EReal) (Wy : Fin 1024 → Fin 512 → EReal) (by' : Fin 512 → EReal)
    (b : Fin 64) (h : Fin 512) : EReal :=
  (∑ k : Fin 1024, q b k * Wy k h) + by' h

/-- The hidden layer's input at region `r` and hidden unit `h`: ((vb r · Wx) h + bx h) + qb h. -/
def pre (vb : Fin 2048 → Fin 1024 → EReal) (Wx : Fin 1024 → Fin 512 → EReal) (bx qb : Fin 512 → EReal)
    (r : Fin 2048) (h : Fin 512) : EReal :=
  ((∑ d : Fin 1024, vb r d * Wx d h) + bx h) + qb h

/-- The score of region `r`: the hidden layer tanh (pre) contracted with `Wa`, plus `ba`. -/
def logit (vb : Fin 2048 → Fin 1024 → EReal) (Wx : Fin 1024 → Fin 512 → EReal) (bx qb Wa : Fin 512 → EReal)
    (ba : EReal) (r : Fin 2048) : EReal :=
  (∑ h : Fin 512, Ideal.tanh (pre vb Wx bx qb r h) * Wa h) + ba

/-- The largest of the 2048 scores (the fold of `max` from minus infinity). -/
def peak (l : Fin 2048 → EReal) : EReal := (Finset.univ : Finset (Fin 2048)).fold max negInf l

/-- The exponential of a score's distance below the largest. -/
def expo (l : Fin 2048 → EReal) (r : Fin 2048) : EReal := Ideal.exp (l r - peak l)

/-- The softmax weight of region `r`: its exponential over the sum of all of them. -/
def weight (l : Fin 2048 → EReal) (r : Fin 2048) : EReal :=
  Ideal.div (expo l r) (∑ r' : Fin 2048, expo l r')

/-- The weighted sum of the regions' feature vectors, at feature `d`. -/
def pool (vb : Fin 2048 → Fin 1024 → EReal) (p : Fin 2048 → EReal) (d : Fin 1024) : EReal :=
  ∑ r : Fin 2048, p r * vb r d

/-- The attention weights of the whole batch: entry `b`, region `r`. -/
def probs (v : Fin 64 → Fin 2048 → Fin 1024 → EReal) (q : Fin 64 → Fin 1024 → EReal)
    (Wx : Fin 1024 → Fin 512 → EReal) (bx : Fin 512 → EReal) (Wy : Fin 1024 → Fin 512 → EReal)
    (by' : Fin 512 → EReal) (Wa : Fin 512 → EReal) (ba : EReal) (b : Fin 64) (r : Fin 2048) : EReal :=
  weight (logit (v b) Wx bx (proj q Wy by' b) Wa ba) r

/-- The pooled features of the whole batch: entry `b`, feature `d`. -/
def pooled (v : Fin 64 → Fin 2048 → Fin 1024 → EReal) (q : Fin 64 → Fin 1024 → EReal)
    (Wx : Fin 1024 → Fin 512 → EReal) (bx : Fin 512 → EReal) (Wy : Fin 1024 → Fin 512 → EReal)
    (by' : Fin 512 → EReal) (Wa : Fin 512 → EReal) (ba : EReal) (b : Fin 64) (d : Fin 1024) : EReal :=
  pool (v b) (weight (logit (v b) Wx bx (proj q Wy by' b) Wa ba)) d

/-! ## The same functions of ARRAYS

An array over a literal shape is read through its coordinates; the two results are arrays over the
shapes [64, 2048, 1] (the weights, with their trailing unit axis) and [64, 1024] (the pooled features). -/

/-- A rank-3 array as a function of its three coordinates. -/
abbrev cur3 {a b c : Nat} (x : (⟨3, ![a, b, c]⟩ : Shape).Idx → EReal) : Fin a → Fin b → Fin c → EReal :=
  fun i j k => x (ix3 i j k)
/-- A rank-2 array as a function of its two coordinates. -/
abbrev cur2 {a b : Nat} (x : (⟨2, ![a, b]⟩ : Shape).Idx → EReal) : Fin a → Fin b → EReal :=
  fun i j => x (ix2 i j)
/-- A rank-1 array as a function of its coordinate. -/
abbrev cur1 {a : Nat} (x : (⟨1, ![a]⟩ : Shape).Idx → EReal) : Fin a → EReal := fun i => x (ix1 i)
/-- A one-column matrix as a function of its row coordinate. -/
abbrev curCol {a : Nat} (x : (⟨2, ![a, 1]⟩ : Shape).Idx → EReal) : Fin a → EReal := fun i => x (ix2 i (0 : Fin 1))

/-- The attention weights as an array [64, 2048, 1] of the eight argument arrays. -/
def probsArr (v : (⟨3, ![64, 2048, 1024]⟩ : Shape).Idx → EReal) (q : (⟨2, ![64, 1024]⟩ : Shape).Idx → EReal)
    (Wx : (⟨2, ![1024, 512]⟩ : Shape).Idx → EReal) (bx : (⟨1, ![512]⟩ : Shape).Idx → EReal)
    (Wy : (⟨2, ![1024, 512]⟩ : Shape).Idx → EReal) (by' : (⟨1, ![512]⟩ : Shape).Idx → EReal)
    (Wa : (⟨2, ![512, 1]⟩ : Shape).Idx → EReal) (ba : (⟨1, ![1]⟩ : Shape).Idx → EReal) :
    (⟨3, ![64, 2048, 1]⟩ : Shape).Idx → EReal :=
  fun i => probs (cur3 v) (cur2 q) (cur2 Wx) (cur1 bx) (cur2 Wy) (cur1 by') (curCol Wa) (ba (ix1 (0 : Fin 1))) (i 0) (i 1)

/-- The pooled features as an array [64, 1024] of the eight argument arrays. -/
def pooledArr (v : (⟨3, ![64, 2048, 1024]⟩ : Shape).Idx → EReal) (q : (⟨2, ![64, 1024]⟩ : Shape).Idx → EReal)
    (Wx : (⟨2, ![1024, 512]⟩ : Shape).Idx → EReal) (bx : (⟨1, ![512]⟩ : Shape).Idx → EReal)
    (Wy : (⟨2, ![1024, 512]⟩ : Shape).Idx → EReal) (by' : (⟨1, ![512]⟩ : Shape).Idx → EReal)
    (Wa : (⟨2, ![512, 1]⟩ : Shape).Idx → EReal) (ba : (⟨1, ![1]⟩ : Shape).Idx → EReal) :
    (⟨2, ![64, 1024]⟩ : Shape).Idx → EReal :=
  fun i => pooled (cur3 v) (cur2 q) (cur2 Wx) (cur1 bx) (cur2 Wy) (cur1 by') (curCol Wa) (ba (ix1 (0 : Fin 1))) (i 0) (i 1)

end Cert.AttnPool

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KernelBody.lean ====
/-
  What the kernel body computes from its blocks, entry by entry.

  At one grid point the body holds one batch entry's features (a block [1, 2048, 1024]), that entry's
  projected query ([1, 1, 512]), and the whole of Wx, bx, Wa, ba. It forms the 2048 scores as a column
  [2048, 1] (a matrix product with Wx, the two biases added row by row, tanh, a matrix product with the
  column Wa, ba added to every row), takes the column's maximum and the sum of the exponentials as
  reductions over the column's one long axis, divides, and stores the quotient as the weights. The pooled
  row is the product of the transposed weight column with the features. Every matrix product accumulates
  into zero, so each is the plain sum of products; a change of float format is the identity on the
  extended reals.
-/
import proofs.«148980_j36172214567562_2_alg».proof.Proof.Gen.KernelIdeal.Skeleton
import proofs.«148980_j36172214567562_2_alg».proof.Proof.Spec
import proofs.«148980_j36172214567562_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.AttnPool

/-! ## The three matrix products, read at an index -/

/-- Features times Wx: entry (r, h) is the sum over the 1024 features. -/
theorem mm_hidden (A : FVec Ideal S2048x1024 .bf16) (B : FVec Ideal S1024x512 .bf16) (r : Fin 2048) (h : Fin 512) :
    matmul dot_S2048x1024_S1024x512_S2048x512_1_0_0_1_n_n none A B (constant (F := Ideal) S2048x512 .f32 0x00000000#32) (ix2 r h)
      = ∑ d : Fin 1024, A (ix2 r d) * B (ix2 d h) :=
  PlainDot.matmul_zero_apply (M := 2048) (K := 1024) (N := 512) none A B r h

/-- Hidden layer times the column Wa: entry (r, o) is the sum over the 512 hidden units. -/
theorem mm_score (A : FVec Ideal S2048x512 .bf16) (B : FVec Ideal S512x1 .bf16) (r : Fin 2048) (o : Fin 1) :
    matmul dot_S2048x512_S512x1_S2048x1_1_0_0_1_n_n none A B (constant (F := Ideal) S2048x1 .f32 0x00000000#32) (ix2 r o)
      = ∑ h : Fin 512, A (ix2 r h) * B (ix2 h o) :=
  PlainDot.matmul_zero_apply (M := 2048) (K := 512) (N := 1) none A B r o

/-- The weight row times the features: entry (u, d) is the sum over the 2048 regions. -/
theorem mm_pool (A : FVec Ideal S1x2048 .bf16) (B : FVec Ideal S2048x1024 .bf16) (u : Fin 1) (d : Fin 1024) :
    matmul dot_S1x2048_S2048x1024_S1x1024_1_0_0_1_n_n none A B (constant (F := Ideal) S1x1024 .f32 0x00000000#32) (ix2 u d)
      = ∑ r : Fin 2048, A (ix2 u r) * B (ix2 r d) :=
  PlainDot.matmul_zero_apply (M := 1) (K := 2048) (N := 1024) none A B u d

/-! ## A column's maximum and sum, broadcast back over the column -/

/-- The reduced index of a column with row `k` put back. -/
theorem lift_col (h : S2048x1.Reduces [0] S1) (o : Fin 1) (k : Fin (S2048x1.size 0)) :
    h.lift (ix1 o) k = ix2 (⟨k.val, k.isLt⟩ : Fin 2048) o := by
  funext c; apply Fin.ext
  fin_cases c <;> rfl

/-- A unit coordinate is zero. -/
theorem fin1_eq (o : Fin 1) : o = (0 : Fin 1) := Subsingleton.elim _ _

/-- The column's maximum from minus infinity, as a [1] vector: the fold of `max` over the rows. -/
theorem colmax_apply (l : FVec Ideal S2048x1 .f32) (hacc : (0xFF800000#32 : BitVec 32) = FKind.maximumf.neutral .f32 (.inl rfl)) (o : Fin 1) :
    multiReduction .maximumf [0] S1 l 0xFF800000#32 reduces_S2048x1_S1 (.inl rfl) hacc (ix1 o)
      = peak (fun r => l (ix2 r (0 : Fin 1))) := by
  obtain rfl := fin1_eq o
  refine (Ideal.multiReduction_maximumf_single l 0xFF800000#32 reduces_S2048x1_S1 (.inl rfl) hacc (ix1 (0 : Fin 1))).trans ?_
  unfold peak
  refine congrArg₂ (fun z f => Finset.fold max z f (Finset.univ : Finset (Fin 2048))) rfl ?_
  funext k
  exact congrArg l (lift_col reduces_S2048x1_S1 (0 : Fin 1) k)

/-- The column's sum, as a [1] vector: the sum over the rows. -/
theorem colsum_apply (e : FVec Ideal S2048x1 .f32) (hacc : (0x00000000#32 : BitVec 32) = FKind.add.neutral .f32 (.inl rfl)) (o : Fin 1) :
    multiReduction .add [0] S1 e 0x00000000#32 reduces_S2048x1_S1 (.inl rfl) hacc (ix1 o)
      = ∑ r : Fin 2048, e (ix2 r (0 : Fin 1)) := by
  obtain rfl := fin1_eq o
  refine (Ideal.multiReduction_add_single e 0x00000000#32 reduces_S2048x1_S1 (.inl rfl) hacc (ix1 (0 : Fin 1))).trans ?_
  refine Finset.sum_congr rfl fun k _ => ?_
  exact congrArg e (lift_col reduces_S2048x1_S1 (0 : Fin 1) k)

/-- A [1] vector viewed [1, 1] and broadcast over the column reads its one entry in every row. -/
theorem bcast_col_apply (z : FVec Ideal S1 .f32) (r : Fin 2048) (o : Fin 1) :
    broadcastTo S2048x1 (shapeCast S1x1 z shapeCasts_S1_S1x1) broadcasts_S1x1_S2048x1 (ix2 r o) = z (ix1 (0 : Fin 1)) := by
  obtain rfl := fin1_eq o
  refine (broadcastTo_1b_ab_apply _ broadcasts_S1x1_S2048x1 r (0 : Fin 1)).trans ?_
  exact shapeCast_a_1a_apply z shapeCasts_S1_S1x1 (0 : Fin 1) (0 : Fin 1)

/-! ## The score column and the softmax of a column, as the body spells them -/

variable (X0 : Vec Ideal S1x2048x1024 .f32) (X1 : Vec Ideal S1x1x512 .f32) (Wx : Vec Ideal S1024x512 .f32)
  (bx : Vec Ideal S1x512 .f32) (Wa : Vec Ideal S512x1 .f32) (ba : Vec Ideal S1x1 .f32)

/-- The hidden layer's input, as the body spells it. -/
def preMat : FVec Ideal S2048x512 .f32 :=
  addf (addf (matmul dot_S2048x1024_S1024x512_S2048x512_1_0_0_1_n_n none (k0_pay2 (F := Ideal) X0) (truncf .bf16 Wx bitsLt_bf16_f32)
        (constant (F := Ideal) S2048x512 .f32 0x00000000#32))
      (broadcastTo S2048x512 (shapeCast S1x512 bx shapeCasts_S1x512_S1x512) broadcasts_S1x512_S2048x512))
    (broadcastTo S2048x512 (shapeCast S1x512 X1 shapeCasts_S1x1x512_S1x512) broadcasts_S1x512_S2048x512)

/-- The score column, as the body spells it. -/
def scoreCol : FVec Ideal S2048x1 .f32 :=
  addf (matmul dot_S2048x512_S512x1_S2048x1_1_0_0_1_n_n none (truncf .bf16 (tanh (preMat X0 X1 Wx bx)) bitsLt_bf16_f32)
        (truncf .bf16 Wa bitsLt_bf16_f32) (constant (F := Ideal) S2048x1 .f32 0x00000000#32))
    (broadcastTo S2048x1 (shapeCast S1x1 ba shapeCasts_S1x1_S1x1) broadcasts_S1x1_S2048x1)

/-- The exponentials of a column's distances below its maximum, as the body spells them. -/
def expCol (l : FVec Ideal S2048x1 .f32) : FVec Ideal S2048x1 .f32 :=
  exp (subf l (broadcastTo S2048x1 (shapeCast S1x1 (multiReduction .maximumf [0] S1 l 0xFF800000#32 reduces_S2048x1_S1 (.inl rfl) rfl)
    shapeCasts_S1_S1x1) broadcasts_S1x1_S2048x1))

/-- The softmax of a column, as the body spells it. -/
def softmaxCol (l : FVec Ideal S2048x1 .f32) : FVec Ideal S2048x1 .f32 :=
  divf (expCol l) (broadcastTo S2048x1 (shapeCast S1x1 (multiReduction .add [0] S1 (expCol l) 0x00000000#32 reduces_S2048x1_S1 (.inl rfl) rfl)
    shapeCasts_S1_S1x1) broadcasts_S1x1_S2048x1)

/-- The weight payload is the softmax of the score column. -/
theorem pay3_eq : k0_pay3 (F := Ideal) X0 X1 Wx bx Wa ba = softmaxCol (scoreCol X0 X1 Wx bx Wa ba) := rfl

/-! ## ... read at an index -/

/-- The features as the body's first product reads them. -/
theorem feat_apply (r : Fin 2048) (d : Fin 1024) : k0_pay2 (F := Ideal) X0 (ix2 r d) = X0 (ix3 (0 : Fin 1) r d) :=
  shapeCast_1ab_ab_apply X0 shapeCasts_S1x2048x1024_S2048x1024 r d

/-- The hidden layer's input at region `r`, hidden unit `h`. -/
theorem preMat_apply (r : Fin 2048) (h : Fin 512) :
    preMat X0 X1 Wx bx (ix2 r h)
      = pre (fun r d => X0 (ix3 (0 : Fin 1) r d)) (cur2 Wx) (fun h => bx (ix2 (0 : Fin 1) h)) (fun h => X1 (ix3 (0 : Fin 1) (0 : Fin 1) h)) r h := by
  unfold preMat pre
  rw [addf_apply, addf_apply, mm_hidden]
  refine congrArg₂ (· + ·) (congrArg₂ (· + ·) (Finset.sum_congr rfl fun d _ => ?_) ?_) ?_
  · rw [feat_apply]; rfl
  · refine (broadcastTo_1b_ab_apply _ broadcasts_S1x512_S2048x512 r h).trans ?_
    rw [shapeCast_self]
  · refine (broadcastTo_1b_ab_apply _ broadcasts_S1x512_S2048x512 r h).trans ?_
    exact shapeCast_1ab_ab_apply X1 shapeCasts_S1x1x512_S1x512 (0 : Fin 1) h

/-- The score of region `r`. -/
theorem scoreCol_apply (r : Fin 2048) (o : Fin 1) :
    scoreCol X0 X1 Wx bx Wa ba (ix2 r o)
      = logit (fun r d => X0 (ix3 (0 : Fin 1) r d)) (cur2 Wx) (fun h => bx (ix2 (0 : Fin 1) h)) (fun h => X1 (ix3 (0 : Fin 1) (0 : Fin 1) h))
          (curCol Wa) (ba (ix2 (0 : Fin 1) (0 : Fin 1))) r := by
  obtain rfl := fin1_eq o
  unfold scoreCol logit
  rw [addf_apply, mm_score]
  refine congrArg₂ (· + ·) (Finset.sum_congr rfl fun h _ => ?_) ?_
  · show Ideal.tanh (preMat X0 X1 Wx bx (ix2 r h)) * Wa (ix2 h (0 : Fin 1)) = _
    rw [preMat_apply]
  · refine (broadcastTo_1b_ab_apply _ broadcasts_S1x1_S2048x1 r (0 : Fin 1)).trans ?_
    rw [shapeCast_self]

/-- The exponential of a column entry's distance below the column's maximum. -/
theorem expCol_apply (l : FVec Ideal S2048x1 .f32) (r : Fin 2048) (o : Fin 1) :
    expCol l (ix2 r o) = expo (fun r => l (ix2 r (0 : Fin 1))) r := by
  obtain rfl := fin1_eq o
  unfold expCol expo
  show Ideal.exp (l (ix2 r (0 : Fin 1)) - broadcastTo S2048x1 _ broadcasts_S1x1_S2048x1 (ix2 r (0 : Fin 1))) = _
  rw [bcast_col_apply]
  exact congrArg (fun z => Ideal.exp (l (ix2 r (0 : Fin 1)) - z)) (colmax_apply l rfl (0 : Fin 1))

/-- The softmax of a column at row `r`. -/
theorem softmaxCol_apply (l : FVec Ideal S2048x1 .f32) (r : Fin 2048) (o : Fin 1) :
    softmaxCol l (ix2 r o) = weight (fun r => l (ix2 r (0 : Fin 1))) r := by
  obtain rfl := fin1_eq o
  unfold softmaxCol weight
  show Ideal.div (expCol l (ix2 r (0 : Fin 1))) (broadcastTo S2048x1 _ broadcasts_S1x1_S2048x1 (ix2 r (0 : Fin 1))) = _
  rw [bcast_col_apply]
  refine congrArg₂ Ideal.div (expCol_apply l r (0 : Fin 1)) ?_
  refine (colsum_apply (expCol l) rfl (0 : Fin 1)).trans ?_
  exact Finset.sum_congr rfl fun r' _ => expCol_apply l r' (0 : Fin 1)

/-! ## The payloads -/

/-- The arguments of one batch entry, as the body's blocks hold them. -/
abbrev entryLogit : Fin 2048 → EReal :=
  logit (fun r d => X0 (ix3 (0 : Fin 1) r d)) (cur2 Wx) (fun h => bx (ix2 (0 : Fin 1) h)) (fun h => X1 (ix3 (0 : Fin 1) (0 : Fin 1) h))
    (curCol Wa) (ba (ix2 (0 : Fin 1) (0 : Fin 1)))

/-- The weight column at row `r`. -/
theorem pay3_apply (r : Fin 2048) (o : Fin 1) :
    k0_pay3 (F := Ideal) X0 X1 Wx bx Wa ba (ix2 r o) = weight (entryLogit X0 X1 Wx bx Wa ba) r := by
  rw [pay3_eq, softmaxCol_apply]
  refine congrArg (fun l => weight l r) (funext fun r' => ?_)
  exact scoreCol_apply X0 X1 Wx bx Wa ba r' (0 : Fin 1)

/-- The stored weight block [1, 2048, 1] at region `r`. -/
theorem pay4_apply (u : Fin 1) (r : Fin 2048) (o : Fin 1) :
    k0_pay4 (F := Ideal) X0 X1 Wx bx Wa ba (ix3 u r o) = weight (entryLogit X0 X1 Wx bx Wa ba) r := by
  unfold k0_pay4
  refine (shapeCast_ab_1ab_apply _ shapeCasts_S2048x1_S1x2048x1 u r o).trans ?_
  exact pay3_apply X0 X1 Wx bx Wa ba r o

/-- The stored pooled block [1, 1, 1024] at feature `d`. -/
theorem pay1_apply (u w : Fin 1) (d : Fin 1024) :
    k0_pay1 (F := Ideal) (k0_pay2 X0) (k0_pay5 X0 X1 Wx bx Wa ba) (ix3 u w d)
      = Cert.AttnPool.pool (fun r d => X0 (ix3 (0 : Fin 1) r d)) (weight (entryLogit X0 X1 Wx bx Wa ba)) d := by
  unfold k0_pay1 Cert.AttnPool.pool
  refine (shapeCast_ab_1ab_apply _ shapeCasts_S1x1024_S1x1x1024 u w d).trans ?_
  rw [mm_pool]
  refine Finset.sum_congr rfl fun r _ => ?_
  refine congrArg₂ (· * ·) ?_ (feat_apply X0 r d)
  unfold k0_pay5
  refine (transpose_ix2_apply _ transposes_S2048x1_p1_0_S1x2048 w r).trans ?_
  exact pay3_apply X0 X1 Wx bx Wa ba r w

/-- The same at any index of the weight block: only the region coordinate matters. -/
theorem pay4_at (y : S1x2048x1.Idx) :
    k0_pay4 (F := Ideal) X0 X1 Wx bx Wa ba y = weight (entryLogit X0 X1 Wx bx Wa ba) (y 1) := by
  obtain ⟨u, r, o, rfl⟩ : ∃ (u : Fin 1) (r : Fin 2048) (o : Fin 1), y = ix3 u r o := ⟨y 0, y 1, y 2, eq_ix3 y⟩
  exact pay4_apply X0 X1 Wx bx Wa ba u r o

/-- The same at any index of the pooled block: only the feature coordinate matters. -/
theorem pay1_at (y : S1x1x1024.Idx) :
    k0_pay1 (F := Ideal) (k0_pay2 X0) (k0_pay5 X0 X1 Wx bx Wa ba) y
      = Cert.AttnPool.pool (fun r d => X0 (ix3 (0 : Fin 1) r d)) (weight (entryLogit X0 X1 Wx bx Wa ba)) (y 2) := by
  obtain ⟨u, w, d, rfl⟩ : ∃ (u w : Fin 1) (d : Fin 1024), y = ix3 u w d := ⟨y 0, y 1, y 2, eq_ix3 y⟩
  exact pay1_apply X0 X1 Wx bx Wa ba u w d

end Cert.KernelIdeal.Body

end
-- ==== Proof.KernelValue.lean ====
/-
  What the kernel's program leaves in its two results, as functions of the argument arrays.

  The grid has one point per batch entry. Point t reads block t of the features and of the projected
  query (both cut along the batch axis), and the whole of Wx, Wa, bx, ba at every point; it writes block
  t of the weights and block t of the pooled features. The projected query, and bx and ba viewed with a
  leading unit axis, are written by host operations before the kernel runs; the pooled features are
  viewed [64, 1024] by one host operation after it. So the blocks written are the blocks of one function
  of the arguments — the attention pooling of Spec.lean — and the 64 blocks tile each output array.
-/
import proofs.«148980_j36172214567562_2_alg».proof.Proof.Gen.KernelIdeal.Frame
import proofs.«148980_j36172214567562_2_alg».proof.Proof.KernelBody
import Idealize.ShloMosaic.Lib.Pipeline.Value
import Idealize.ShloMosaic.Lib.StableHlo.Run

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx Cert.AttnPool
open Idealize.ShloMosaic.Pipeline (Dat)

variable (m : (ℓ : Loc nD τ sig) → Buf (Elt Ideal) ℓ) (ρ : Dev nD → PrngReg)

/-! ## The arguments, as arrays -/

abbrev a0 (c : Dev nD) : S64x2048x1024.Idx → EReal := m ((c : Thread nD τ).loc main_arg0)
abbrev a1 (c : Dev nD) : S64x1024.Idx → EReal := m ((c : Thread nD τ).loc main_arg1)
abbrev a2 (c : Dev nD) : S1024x512.Idx → EReal := m ((c : Thread nD τ).loc main_arg2)
abbrev a3 (c : Dev nD) : S512.Idx → EReal := m ((c : Thread nD τ).loc main_arg3)
abbrev a4 (c : Dev nD) : S1024x512.Idx → EReal := m ((c : Thread nD τ).loc main_arg4)
abbrev a5 (c : Dev nD) : S512.Idx → EReal := m ((c : Thread nD τ).loc main_arg5)
abbrev a6 (c : Dev nD) : S512x1.Idx → EReal := m ((c : Thread nD τ).loc main_arg6)
abbrev a7 (c : Dev nD) : S1.Idx → EReal := m ((c : Thread nD τ).loc main_arg7)

/-- The weights the program should leave: the attention weights of the arguments. -/
abbrev weightsOf (c : Dev nD) : S64x2048x1.Idx → EReal :=
  probsArr (a0 m c) (a1 m c) (a2 m c) (a3 m c) (a4 m c) (a5 m c) (a6 m c) (a7 m c)

/-- The pooled features as the kernel writes them, with their middle unit axis. -/
def pooledBlocks (c : Dev nD) : S64x1x1024.Idx → EReal := fun i =>
  pooled (cur3 (a0 m c)) (cur2 (a1 m c)) (cur2 (a2 m c)) (cur1 (a3 m c)) (cur2 (a4 m c)) (cur1 (a5 m c)) (curCol (a6 m c))
    (a7 m c (ix1 (0 : Fin 1))) (i 0) (i 2)

/-! ## What the host operations before the kernel leave -/

/-- bx viewed as one row. -/
theorem V_bx (c : Dev nD) :
    (V m c main_v5 : S1x512.Idx → EReal) = shapeCast S1x512 (a3 m c) shapeCasts_S512_S1x512 := by
  show StableHlo.after hostOps0 (fun b => m (c, b)) (Proc.devRef .tc main_v5) = _
  after_results
  rfl

/-- ba viewed as a 1×1 matrix. -/
theorem V_ba (c : Dev nD) :
    (V m c main_v6 : S1x1.Idx → EReal) = shapeCast S1x1 (a7 m c) shapeCasts_S1_S1x1 := by
  show StableHlo.after hostOps0 (fun b => m (c, b)) (Proc.devRef .tc main_v6) = _
  after_results
  rfl

/-- The projected query with a middle unit axis. -/
theorem V_qp (c : Dev nD) :
    (V m c main_v4 : S64x1x512.Idx → EReal)
      = shapeCast S64x1x512
          (addf (Host.dotGeneral (F := Ideal) (φ₁ := .f32) (φ₂ := .f32) dot_S64x1024_S1024x512_S64x512_1_0_0_1_n_n none (a1 m c) (a4 m c))
            (broadcastInDim S64x512 ![0, 1] bcast_S1x512_S64x512_0_1 (broadcastInDim S1x512 ![1] bcast_S512_S1x512_1 (a5 m c))))
          shapeCasts_S64x512_S64x1x512 := by
  show StableHlo.after hostOps0 (fun b => m (c, b)) (Proc.devRef .tc main_v4) = _
  after_results
  rfl

theorem bx_read (c : Dev nD) (h : Fin 512) : V m c main_v5 (ix2 (0 : Fin 1) h) = a3 m c (ix1 h) :=
  (congrFun (V_bx m c) (ix2 (0 : Fin 1) h)).trans (shapeCast_a_1a_apply (a3 m c) shapeCasts_S512_S1x512 (0 : Fin 1) h)

theorem ba_read (c : Dev nD) : V m c main_v6 (ix2 (0 : Fin 1) (0 : Fin 1)) = a7 m c (ix1 (0 : Fin 1)) :=
  (congrFun (V_ba m c) (ix2 (0 : Fin 1) (0 : Fin 1))).trans (shapeCast_a_1a_apply (a7 m c) shapeCasts_S1_S1x1 (0 : Fin 1) (0 : Fin 1))

theorem qp_read (c : Dev nD) (b : Fin 64) (h : Fin 512) :
    V m c main_v4 (ix3 b (0 : Fin 1) h) = proj (cur2 (a1 m c)) (cur2 (a4 m c)) (cur1 (a5 m c)) b h := by
  refine (congrFun (V_qp m c) (ix3 b (0 : Fin 1) h)).trans ?_
  refine (shapeCast_apply _ shapeCasts_S64x512_S64x1x512 (ix3 b (0 : Fin 1) h) (ix2 b h) (by
    rw [Shape.rowMajor_val_two, Shape.rowMajor_val_three]
    show b.val * 512 + h.val = (b.val * 1 + 0) * 512 + h.val
    omega)).trans ?_
  unfold proj
  rw [addf_apply]
  refine congrArg₂ (· + ·) ?_ ?_
  · exact PlainDot.dotGeneral_apply (M := 64) (K := 1024) (N := 512) none _ (a1 m c) (a4 m c) b h
  · refine (broadcastInDim_apply _ bcast_S1x512_S64x512_0_1 _ (ix2 b h) (ix2 (0 : Fin 1) h) (fun a => match a with
      | ⟨0, _⟩ => by show 0 = if (1 : Nat) = 1 then 0 else b.val; rw [if_pos rfl]
      | ⟨1, _⟩ => by show h.val = if (512 : Nat) = 1 then 0 else h.val; rw [if_neg (by decide)])).trans ?_
    exact broadcastInDim_apply _ bcast_S512_S1x512_1 (a5 m c) (ix2 (0 : Fin 1) h) (ix1 h) (fun a => match a with
      | ⟨0, _⟩ => by show h.val = if (512 : Nat) = 1 then 0 else h.val; rw [if_neg (by decide)])

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- A grid point is a batch entry. -/
theorem point_lt (t : Fin cfg0.N) : t.val < 64 := Nat.lt_of_lt_of_eq t.isLt N_0
abbrev entry (t : Fin cfg0.N) : Fin 64 := ⟨t.val, point_lt t⟩

theorem hz3 : (![0, 0, 0] : Fin 3 → Nat) = fun _ => 0 := funext fun a => by fin_cases a <;> rfl
theorem hz2 : (![0, 0] : Fin 2 → Nat) = fun _ => 0 := funext fun a => by fin_cases a <;> rfl

/-! ## The input blocks at a point, read off the arguments -/

theorem blk0 (c : Dev nD) (t : Fin cfg0.N) (r : Fin 2048) (d : Fin 1024) :
    iblk m c 0 t (ix3 (0 : Fin 1) r d) = a0 m c (ix3 (entry t) r d) := by
  obtain ⟨e0, e1, e2, -⟩ := idx_facts t
  refine Eq.trans ?_ (congrFun (V_main_arg0 m c) _)
  show V m c main_arg0 (((cfg0.win 0).blk t).view.emb (ix3 (0 : Fin 1) r d)) = V m c main_arg0 (ix3 (entry t) r d)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 1024 + 1 * d.val = d.val; omega

theorem blk1 (c : Dev nD) (t : Fin cfg0.N) (h : Fin 512) :
    iblk m c 1 t (ix3 (0 : Fin 1) (0 : Fin 1) h) = proj (cur2 (a1 m c)) (cur2 (a4 m c)) (cur1 (a5 m c)) (entry t) h := by
  obtain ⟨-, -, -, e0, e1, e2, -⟩ := idx_facts t
  refine Eq.trans ?_ (qp_read m c (entry t) h)
  show V m c main_v4 (((cfg0.win 1).blk t).view.emb (ix3 (0 : Fin 1) (0 : Fin 1) h)) = V m c main_v4 (ix3 (entry t) (0 : Fin 1) h)
  refine congrArg (V m c main_v4) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * h.val = h.val; omega

theorem blk2 (c : Dev nD) (t : Fin cfg0.N) (d : Fin 1024) (h : Fin 512) :
    iblk m c 2 t (ix2 d h) = a2 m c (ix2 d h) := by
  obtain ⟨-, -, -, -, -, -, e0, e1, -⟩ := idx_facts t
  refine Eq.trans ?_ (congrFun (V_main_arg2 m c) _)
  show V m c main_arg2 (((cfg0.win 2).blk t).view.emb (ix2 d h)) = V m c main_arg2 (ix2 d h)
  refine congrArg (V m c main_arg2) (funext fun a => Fin.ext ?_)
  match a with
  | ⟨0, _⟩ => show win0_2.index t (0 : Fin 2) * 1024 + 1 * d.val = d.val; omega
  | ⟨1, _⟩ => show win0_2.index t (1 : Fin 2) * 512 + 1 * h.val = h.val; omega

theorem blk3 (c : Dev nD) (t : Fin cfg0.N) (h : Fin 512) :
    iblk m c 3 t (ix2 h (0 : Fin 1)) = a6 m c (ix2 h (0 : Fin 1)) := by
  obtain ⟨-, -, -, -, -, -, -, -, e0, e1, -⟩ := idx_facts t
  refine Eq.trans ?_ (congrFun (V_main_arg6 m c) _)
  show V m c main_arg6 (((cfg0.win 3).blk t).view.emb (ix2 h (0 : Fin 1))) = V m c main_arg6 (ix2 h (0 : Fin 1))
  refine congrArg (V m c main_arg6) (funext fun a => Fin.ext ?_)
  match a with
  | ⟨0, _⟩ => show win0_3.index t (0 : Fin 2) * 512 + 1 * h.val = h.val; omega
  | ⟨1, _⟩ => show win0_3.index t (1 : Fin 2) * 1 + 1 * 0 = 0; omega

theorem blk4 (c : Dev nD) (t : Fin cfg0.N) (h : Fin 512) :
    iblk m c 4 t (ix2 (0 : Fin 1) h) = a3 m c (ix1 h) := by
  obtain ⟨-, -, -, -, -, -, -, -, -, -, e0, e1, -⟩ := idx_facts t
  refine Eq.trans ?_ (bx_read m c h)
  show V m c main_v5 (((cfg0.win 4).blk t).view.emb (ix2 (0 : Fin 1) h)) = V m c main_v5 (ix2 (0 : Fin 1) h)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 512 + 1 * h.val = h.val; omega

theorem blk5 (c : Dev nD) (t : Fin cfg0.N) :
    iblk m c 5 t (ix2 (0 : Fin 1) (0 : Fin 1)) = a7 m c (ix1 (0 : Fin 1)) := by
  obtain ⟨-, -, -, -, -, -, -, -, -, -, -, -, e0, e1, -⟩ := idx_facts t
  refine Eq.trans ?_ (ba_read m c)
  show V m c main_v6 (((cfg0.win 5).blk t).view.emb (ix2 (0 : Fin 1) (0 : Fin 1))) = V m c main_v6 (ix2 (0 : Fin 1) (0 : Fin 1))
  refine congrArg (V m c main_v6) (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

/-- The scores of batch entry t, from the blocks point t holds, are the scores of the arguments. -/
theorem entryLogit_eq (c : Dev nD) (t : Fin cfg0.N) :
    Body.entryLogit (iblk m c 0 t) (iblk m c 1 t) (iblk m c 2 t) (iblk m c 4 t) (iblk m c 3 t) (iblk m c 5 t)
      = logit (cur3 (a0 m c) (entry t)) (cur2 (a2 m c)) (cur1 (a3 m c))
          (proj (cur2 (a1 m c)) (cur2 (a4 m c)) (cur1 (a5 m c)) (entry t)) (curCol (a6 m c)) (a7 m c (ix1 (0 : Fin 1))) := by
  have h0 : (fun (r : Fin 2048) (d : Fin 1024) => iblk m c 0 t (ix3 (0 : Fin 1) r d)) = cur3 (a0 m c) (entry t) :=
    funext fun r => funext fun d => blk0 m c t r d
  have h1 : (fun (h : Fin 512) => iblk m c 1 t (ix3 (0 : Fin 1) (0 : Fin 1) h))
      = proj (cur2 (a1 m c)) (cur2 (a4 m c)) (cur1 (a5 m c)) (entry t) := funext fun h => blk1 m c t h
  have h2 : (fun (d : Fin 1024) (h : Fin 512) => iblk m c 2 t (ix2 d h)) = cur2 (a2 m c) :=
    funext fun d => funext fun h => blk2 m c t d h
  have h3 : (fun (h : Fin 512) => iblk m c 3 t (ix2 h (0 : Fin 1))) = curCol (a6 m c) := funext fun h => blk3 m c t h
  have h4 : (fun (h : Fin 512) => iblk m c 4 t (ix2 (0 : Fin 1) h)) = cur1 (a3 m c) := funext fun h => blk4 m c t h
  show logit (fun r d => iblk m c 0 t (ix3 (0 : Fin 1) r d)) (fun d h => iblk m c 2 t (ix2 d h))
      (fun h => iblk m c 4 t (ix2 (0 : Fin 1) h)) (fun h => iblk m c 1 t (ix3 (0 : Fin 1) (0 : Fin 1) h))
      (fun h => iblk m c 3 t (ix2 h (0 : Fin 1))) (iblk m c 5 t (ix2 (0 : Fin 1) (0 : Fin 1))) = _
  rw [h0, h1, h2, h3, h4, blk5]

/-! ## What a point writes back -/

/-- Where an element of the weight block of point t sits in the array. -/
theorem emb6 (t : Fin cfg0.N) (j : S1x2048x1.Idx) :
    ((cfg0.win 6).blk t).view.emb j = ix3 (entry t) (j 1) (j 2) := by
  obtain ⟨-, -, -, -, -, -, -, -, -, -, -, -, -, -, e0, e1, e2, -⟩ := idx_facts t
  funext a; apply Fin.ext
  have h0 : (j 0).val < 1 := (j 0).isLt
  match a with
  | ⟨0, _⟩ => show win0_6.index t (0 : Fin 3) * 1 + 1 * (j 0).val = t.val; omega
  | ⟨1, _⟩ => show win0_6.index t (1 : Fin 3) * 2048 + 1 * (j 1).val = (j 1).val; omega
  | ⟨2, _⟩ => show win0_6.index t (2 : Fin 3) * 1 + 1 * (j 2).val = (j 2).val; omega

/-- Where an element of the pooled block of point t sits in the array. -/
theorem emb7 (t : Fin cfg0.N) (j : S1x1x1024.Idx) :
    ((cfg0.win 7).blk t).view.emb j = ix3 (entry t) (j 1) (j 2) := by
  obtain ⟨-, -, -, -, -, -, -, -, -, -, -, -, -, -, -, -, -, e0, e1, e2⟩ := idx_facts t
  funext a; apply Fin.ext
  have h0 : (j 0).val < 1 := (j 0).isLt
  match a with
  | ⟨0, _⟩ => show win0_7.index t (0 : Fin 3) * 1 + 1 * (j 0).val = t.val; omega
  | ⟨1, _⟩ => show win0_7.index t (1 : Fin 3) * 1 + 1 * (j 1).val = (j 1).val; omega
  | ⟨2, _⟩ => show win0_7.index t (2 : Fin 3) * 1024 + 1 * (j 2).val = (j 2).val; omega

/-- Point t writes back block t of the attention weights. -/
theorem flushed6_eq (c : Dev nD) (t : Fin cfg0.N) :
    (dats m 0 c).flushed 6 t = ((cfg0.win 6).blk t).view.read (Elt Ideal) (weightsOf m c) := by
  show (cfg0.win 6).cut (grid0.coords t) ((dats m 0 c).after 6 t) = _
  rw [after0_6]
  unfold out0_6
  rw [View.canon_unit_zero hz3]
  simp only [View.ld_unit_zero (S := S1x2048x1024) hz3, View.ld_unit_zero (S := S1x1x512) hz3,
    View.ld_unit_zero (S := S1024x512) hz2, View.ld_unit_zero (S := S1x512) hz2, View.ld_unit_zero (S := S512x1) hz2,
    View.ld_unit_zero (S := S1x1) hz2]
  funext j
  show k0_pay4 (F := Ideal) (iblk m c 0 t) (iblk m c 1 t) (iblk m c 2 t) (iblk m c 4 t) (iblk m c 3 t) (iblk m c 5 t) j
    = weightsOf m c (((cfg0.win 6).blk t).view.emb j)
  refine (Body.pay4_at (iblk m c 0 t) (iblk m c 1 t) (iblk m c 2 t) (iblk m c 4 t) (iblk m c 3 t) (iblk m c 5 t) j).trans ?_
  rw [entryLogit_eq, emb6]
  rfl

/-- Point t writes back block t of the pooled features. -/
theorem flushed7_eq (c : Dev nD) (t : Fin cfg0.N) :
    (dats m 0 c).flushed 7 t = ((cfg0.win 7).blk t).view.read (Elt Ideal) (pooledBlocks m c) := by
  show (cfg0.win 7).cut (grid0.coords t) ((dats m 0 c).after 7 t) = _
  rw [after0_7]
  unfold out0_7
  rw [View.canon_unit_zero hz3]
  simp only [View.ld_unit_zero (S := S1x2048x1024) hz3, View.ld_unit_zero (S := S1x1x512) hz3,
    View.ld_unit_zero (S := S1024x512) hz2, View.ld_unit_zero (S := S1x512) hz2, View.ld_unit_zero (S := S512x1) hz2,
    View.ld_unit_zero (S := S1x1) hz2]
  funext j
  show k0_pay1 (F := Ideal) (k0_pay2 (iblk m c 0 t))
      (k0_pay5 (iblk m c 0 t) (iblk m c 1 t) (iblk m c 2 t) (iblk m c 4 t) (iblk m c 3 t) (iblk m c 5 t)) j
    = pooledBlocks m c (((cfg0.win 7).blk t).view.emb j)
  refine (Body.pay1_at (iblk m c 0 t) (iblk m c 1 t) (iblk m c 2 t) (iblk m c 4 t) (iblk m c 3 t) (iblk m c 5 t) j).trans ?_
  have h0 : (fun (r : Fin 2048) (d : Fin 1024) => iblk m c 0 t (ix3 (0 : Fin 1) r d)) = cur3 (a0 m c) (entry t) :=
    funext fun r => funext fun d => blk0 m c t r d
  rw [entryLogit_eq, emb7, h0]
  rfl

/-! ## The blocks tile the arrays -/

theorem mem_blk6 (t : Fin cfg0.N) (i : S64x2048x1.Idx) :
    i ∈ ((cfg0.win 6).blk t).view.set ↔ ∀ a : Fin 3, win0_6.index t a * S1x2048x1.size a ≤ (i a).val ∧ (i a).val < win0_6.index t a * S1x2048x1.size a + S1x2048x1.size a := by
  show i ∈ ((View.whole main_v7_0).slice (win0_6.rect t)).set ↔ _
  rw [View.set_slice_whole, Rect.mem_set_unit]
  exact Iff.rfl

theorem mem_blk7 (t : Fin cfg0.N) (i : S64x1x1024.Idx) :
    i ∈ ((cfg0.win 7).blk t).view.set ↔ ∀ a : Fin 3, win0_7.index t a * S1x1x1024.size a ≤ (i a).val ∧ (i a).val < win0_7.index t a * S1x1x1024.size a + S1x1x1024.size a := by
  show i ∈ ((View.whole main_v7_1).slice (win0_7.rect t)).set ↔ _
  rw [View.set_slice_whole, Rect.mem_set_unit]
  exact Iff.rfl

/-- Every index of the weights is in the block of its batch entry's point. -/
theorem cover6 (i : S64x2048x1.Idx) :
    ∃ t : Fin cfg0.N, (cfg0.win 6).flush t = true ∧ i ∈ ((cfg0.win 6).blk t).view.set := by
  have hi0 : (i 0).val < 64 := (i 0).isLt
  have hi1 : (i 1).val < 2048 := (i 1).isLt
  have hi2 : (i 2).val < 1 := (i 2).isLt
  refine ⟨⟨(i 0).val, Nat.lt_of_lt_of_eq hi0 N_0.symm⟩, flush0_6 _, ?_⟩
  obtain ⟨-, -, -, -, -, -, -, -, -, -, -, -, -, -, e0, e1, e2, -⟩ := idx_facts ⟨(i 0).val, Nat.lt_of_lt_of_eq hi0 N_0.symm⟩
  rw [mem_blk6]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 2048 ≤ (i 1).val ∧ (i 1).val < win0_6.index _ (1 : Fin 3) * 2048 + 2048; rw [e1]; omega
  | ⟨2, _⟩ => show win0_6.index _ (2 : Fin 3) * 1 ≤ (i 2).val ∧ (i 2).val < win0_6.index _ (2 : Fin 3) * 1 + 1; rw [e2]; omega

/-- Every index of the pooled features is in the block of its batch entry's point. -/
theorem cover7 (i : S64x1x1024.Idx) :
    ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 1024 := (i 2).isLt
  refine ⟨⟨(i 0).val, Nat.lt_of_lt_of_eq hi0 N_0.symm⟩, flush0_7 _, ?_⟩
  obtain ⟨-, -, -, -, -, -, -, -, -, -, -, -, -, -, -, -, -, e0, e1, e2⟩ := idx_facts ⟨(i 0).val, Nat.lt_of_lt_of_eq hi0 N_0.symm⟩
  rw [mem_blk7]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 1024 ≤ (i 2).val ∧ (i 2).val < win0_7.index _ (2 : Fin 3) * 1024 + 1024; rw [e2]; omega

/-! ## The arrays after the run -/

/-- The weights array ends holding the attention weights of the arguments. -/
theorem final6 (c : Dev nD) : (dats m 0 c).arrAt 6 cfg0.N = weightsOf m c :=
  (dats m 0 c).arrAt_eq_of_cover 6 (weightsOf m c) (fun t _ => flushed6_eq m c t) cover6

/-- The kernel's pooled array ends holding the pooled features of the arguments. -/
theorem final7 (c : Dev nD) : (dats m 0 c).arrAt 7 cfg0.N = pooledBlocks m c :=
  (dats m 0 c).arrAt_eq_of_cover 7 (pooledBlocks m c) (fun t _ => flushed7_eq m c t) cover7

/-- The host operation after the kernel drops the middle unit axis. -/
theorem tail8 (c : Dev nD) :
    Pipeline.afterTail₀ cfgs (dats m) 0 (V0 m) [hostOps1] c main_v8
      = pooledArr (a0 m c) (a1 m c) (a2 m c) (a3 m c) (a4 m c) (a5 m c) (a6 m c) (a7 m c) := by
  unfold Pipeline.afterTail₀
  show StableHlo.after hostOps1 _ (Proc.devRef .tc main_v8) = _
  after_results
  funext i
  obtain ⟨b, d, rfl⟩ : ∃ (b : Fin 64) (d : Fin 1024), i = ix2 b d := ⟨i 0, i 1, eq_ix2 i⟩
  show shapeCast S64x1024 (Pipeline.withArrays (cfgs 0).spec c (V0 m c) (fun w => (dats m 0 c).arrAt w (cfgs 0).N)
      (Proc.devRef .tc main_v7_1)) shapeCasts_S64x1x1024_S64x1024 (ix2 b d) = _
  refine (shapeCast_apply _ shapeCasts_S64x1x1024_S64x1024 (ix2 b d) (ix3 b (0 : Fin 1) d) (by
    rw [Shape.rowMajor_val_three, Shape.rowMajor_val_two]
    show (b.val * 1 + 0) * 1024 + d.val = b.val * 1024 + d.val
    omega)).trans ?_
  refine (congrFun ((Pipeline.withArrays_arr spec0 launch0.win.arr_inj c (V0 m c)
    (fun w => (dats m 0 c).arrAt w cfg0.N) 7).trans (final7 m c)) (ix3 b (0 : Fin 1) d)).trans ?_
  rfl

/-! ## The run -/

/-- Every weakly fair execution of the kernel's program terminates with the pooled features and the
    attention weights of its arguments in its two results, and the arguments unchanged. -/
theorem run : θ_run defs (onTc (τ := τ) (main (F := Ideal))) ⟨m, fun _ => 0, ρ⟩ fun r => ∀ c : Dev nD,
      r.2.mem ((c.tc : Thread nD τ).loc main_v8) = pooledArr (a0 m c) (a1 m c) (a2 m c) (a3 m c) (a4 m c) (a5 m c) (a6 m c) (a7 m c)
      ∧ r.2.mem ((c.tc : Thread nD τ).loc main_v7_0) = probsArr (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v8 (Pipeline.mem_restRefs_of main_v8 (by decide) (by decide))).trans (tail8 m c),
      ((h c).1 6).trans (final6 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

end Cert.KernelIdeal.PoolValue

end
-- ==== Proof.RefValue.lean ====
/-
  The reference program, read at an index, is the attention pooling of Spec.lean.

  The reference's host operations are read one at a time by the generated read-at-an-index lemmas; the
  index functions those lemmas compose are identified here with plain coordinate tuples, and the one
  operation they do not read — the maximum over the region axis — is read as the fold of `max` over that
  axis's coordinates. The reference takes the maximum once more against minus infinity, which changes
  nothing, and starts both of its sums from zero.
-/
import proofs.«148980_j36172214567562_2_alg».proof.Proof.Gen.ReferenceIdeal.Read
import proofs.«148980_j36172214567562_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnPool

/-! ## The composed index functions, by coordinates -/

theorem l_v0 (b : Fin 64) (h : Fin 512) (k : Fin 1024) : lidx_main_v0 (ix2 b h) k = ix2 b k :=
  funext fun a => by match a with | ⟨0, _⟩ => rfl | ⟨1, _⟩ => rfl
theorem r_v0 (b : Fin 64) (h : Fin 512) (k : Fin 1024) : ridx_main_v0 (ix2 b h) k = ix2 k h :=
  funext fun a => by match a with | ⟨0, _⟩ => rfl | ⟨1, _⟩ => rfl
theorem i_v1 (u : Fin 1) (h : Fin 512) : idx_main_v1 (ix2 u h) = ix1 h :=
  funext fun a => by match a with | ⟨0, _⟩ => rfl
theorem i_v2 (b : Fin 64) (h : Fin 512) : idx_main_v2 (ix2 b h) = ix2 (0 : Fin 1) h :=
  funext fun a => by match a with | ⟨0, _⟩ => rfl | ⟨1, _⟩ => rfl
theorem l_v4 (b : Fin 64) (r : Fin 2048) (h : Fin 512) (k : Fin 1024) : lidx_main_v4 (ix3 b r h) k = ix3 b r k :=
  funext fun a => by match a with | ⟨0, _⟩ => rfl | ⟨1, _⟩ => rfl | ⟨2, _⟩ => rfl
theorem r_v4 (b : Fin 64) (r : Fin 2048) (h : Fin 512) (k : Fin 1024) : ridx_main_v4 (ix3 b r h) k = ix2 k h :=
  funext fun a => by match a with | ⟨0, _⟩ => rfl | ⟨1, _⟩ => rfl
theorem i_v5 (u v : Fin 1) (h : Fin 512) : idx_main_v5 (ix3 u v h) = ix1 h :=
  funext fun a => by match a with | ⟨0, _⟩ => rfl
theorem i_v6 (b : Fin 64) (r : Fin 2048) (h : Fin 512) : idx_main_v6 (ix3 b r h) = ix3 (0 : Fin 1) (0 : Fin 1) h :=
  funext fun a => by match a with | ⟨0, _⟩ => rfl | ⟨1, _⟩ => rfl | ⟨2, _⟩ => rfl
theorem i_v8 (b : Fin 64) (u : Fin 1) (h : Fin 512) : idx_main_v8 (ix3 b u h) = ix2 b h :=
  funext fun a => by match a with | ⟨0, _⟩ => rfl | ⟨1, _⟩ => rfl
theorem i_v9 (b : Fin 64) (r : Fin 2048) (h : Fin 512) : idx_main_v9 (ix3 b r h) = ix3 b (0 : Fin 1) h :=
  funext fun a => by match a with | ⟨0, _⟩ => rfl | ⟨1, _⟩ => rfl | ⟨2, _⟩ => rfl
theorem l_v12 (b : Fin 64) (r : Fin 2048) (o : Fin 1) (k : Fin 512) : lidx_main_v12 (ix3 b r o) k = ix3 b r k :=
  funext fun a => by match a with | ⟨0, _⟩ => rfl | ⟨1, _⟩ => rfl | ⟨2, _⟩ => rfl
theorem r_v12 (b : Fin 64) (r : Fin 2048) (o : Fin 1) (k : Fin 512) : ridx_main_v12 (ix3 b r o) k = ix2 k o :=
  funext fun a => by match a with | ⟨0, _⟩ => rfl | ⟨1, _⟩ => rfl
theorem i_v13 (u v w : Fin 1) : idx_main_v13 (ix3 u v w) = ix1 (0 : Fin 1) :=
  funext fun a => by match a with | ⟨0, _⟩ => rfl
theorem i_v14 (b : Fin 64) (r : Fin 2048) (o : Fin 1) : idx_main_v14 (ix3 b r o) = ix3 (0 : Fin 1) (0 : Fin 1) (0 : Fin 1) :=
  funext fun a => by match a with | ⟨0, _⟩ => rfl | ⟨1, _⟩ => rfl | ⟨2, _⟩ => rfl
theorem i_v19 (b : Fin 64) (u o : Fin 1) : idx_main_v19 (ix3 b u o) = ix2 b (0 : Fin 1) :=
  funext fun a => by match a with | ⟨0, _⟩ => rfl | ⟨1, _⟩ => rfl
theorem i_v20 (b : Fin 64) (r : Fin 2048) (o : Fin 1) : idx_main_v20 (ix3 b r o) = ix3 b (0 : Fin 1) (0 : Fin 1) :=
  funext fun a => by match a with | ⟨0, _⟩ => rfl | ⟨1, _⟩ => rfl | ⟨2, _⟩ => rfl
theorem i_v23 (b : Fin 64) (o : Fin 1) (k : Fin 2048) : idx_main_v23 (ix2 b o) k = ix3 b k o :=
  funext fun a => by match a with | ⟨0, _⟩ => rfl | ⟨1, _⟩ => rfl | ⟨2, _⟩ => rfl
theorem i_v24 (b : Fin 64) (u o : Fin 1) : idx_main_v24 (ix3 b u o) = ix2 b (0 : Fin 1) :=
  funext fun a => by match a with | ⟨0, _⟩ => rfl | ⟨1, _⟩ => rfl
theorem i_v25 (b : Fin 64) (r : Fin 2048) (o : Fin 1) : idx_main_v25 (ix3 b r o) = ix3 b (0 : Fin 1) (0 : Fin 1) :=
  funext fun a => by match a with | ⟨0, _⟩ => rfl | ⟨1, _⟩ => rfl | ⟨2, _⟩ => rfl
theorem i_v27 (b : Fin 64) (r : Fin 2048) (d : Fin 1024) : idx_main_v27 (ix3 b r d) = ix3 b r (0 : Fin 1) :=
  funext fun a => by match a with | ⟨0, _⟩ => rfl | ⟨1, _⟩ => rfl | ⟨2, _⟩ => rfl
theorem i_v29 (b : Fin 64) (d : Fin 1024) (k : Fin 2048) : idx_main_v29 (ix2 b d) k = ix3 b k d :=
  funext fun a => by match a with | ⟨0, _⟩ => rfl | ⟨1, _⟩ => rfl | ⟨2, _⟩ => rfl

/-- A unit coordinate is zero. -/
theorem fin1_eq (o : Fin 1) : o = (0 : Fin 1) := Subsingleton.elim _ _

/-- The larger of minus infinity and `x` is `x`. -/
theorem max_negInf (x : EReal) : max negInf x = x := by
  show max (Ideal.ofBits .f32 0xFF800000#32) x = x
  simp [Ideal.ofBits, Ideal.ieee]

variable (x0 : (⟨S64x2048x1024, .f32⟩ : BufTy).Contents (Elt Ideal)) (x1 : (⟨S64x1024, .f32⟩ : BufTy).Contents (Elt Ideal))
  (x2 : (⟨S1024x512, .f32⟩ : BufTy).Contents (Elt Ideal)) (x3 : (⟨S512, .f32⟩ : BufTy).Contents (Elt Ideal))
  (x4 : (⟨S1024x512, .f32⟩ : BufTy).Contents (Elt Ideal)) (x5 : (⟨S512, .f32⟩ : BufTy).Contents (Elt Ideal))
  (x6 : (⟨S512x1, .f32⟩ : BufTy).Contents (Elt Ideal)) (x7 : (⟨S1, .f32⟩ : BufTy).Contents (Elt Ideal))

/-! ## The reference's stages, by coordinates -/

/-- The projected query. -/
theorem proj_eq (b : Fin 64) (h : Fin 512) :
    val_main_v3 (F := Ideal) x1 x4 x5 (ix2 b h) = proj (cur2 x1) (cur2 x4) (cur1 x5) b h := by
  rw [val_main_v3_apply, val_main_v0_apply, val_main_v2_apply, val_main_v1_apply]
  simp only [l_v0, r_v0, i_v2, i_v1, Ideal.addf_def]
  rfl

/-- The hidden layer's input. -/
theorem pre_eq (b : Fin 64) (r : Fin 2048) (h : Fin 512) :
    val_main_v10 (F := Ideal) x0 x1 x2 x3 x4 x5 (ix3 b r h)
      = pre (cur3 x0 b) (cur2 x2) (cur1 x3) (proj (cur2 x1) (cur2 x4) (cur1 x5) b) r h := by
  rw [val_main_v10_apply, val_main_v7_apply, val_main_v4_apply, val_main_v6_apply, val_main_v5_apply,
    val_main_v9_apply, val_main_v8_apply]
  simp only [l_v4, r_v4, i_v6, i_v5, i_v9, i_v8, proj_eq, Ideal.addf_def]
  rfl

/-- A region's score. -/
theorem logit_eq (b : Fin 64) (r : Fin 2048) (o : Fin 1) :
    val_main_v15 (F := Ideal) x0 x1 x2 x3 x4 x5 x6 x7 (ix3 b r o)
      = logit (cur3 x0 b) (cur2 x2) (cur1 x3) (proj (cur2 x1) (cur2 x4) (cur1 x5) b) (curCol x6) (x7 (ix1 (0 : Fin 1))) r := by
  obtain rfl := fin1_eq o
  rw [val_main_v15_apply, val_main_v12_apply, val_main_v14_apply, val_main_v13_apply]
  simp only [l_v12, r_v12, i_v14, i_v13, val_main_v11_apply, pre_eq, Ideal.addf_def, Ideal.hostUnary_tanh_def]
  rfl

/-- The inserted index of the reduction over the region axis, by coordinates. -/
theorem lift_v16 (h : S64x2048x1.Reduces [1] S64x1) (b : Fin 64) (o : Fin 1) (k : Fin (S64x2048x1.size 1)) :
    h.lift (ix2 b o) k = ix3 b (⟨k.val, k.isLt⟩ : Fin 2048) o := by
  funext c; apply Fin.ext
  fin_cases c <;> rfl

/-- The largest score of a batch entry: the reduction over the region axis from minus infinity is the fold of
    `max` over the regions. -/
theorem rowmax_eq (b : Fin 64) (o : Fin 1) :
    val_main_v16 (F := Ideal) x0 x1 x2 x3 x4 x5 x6 x7 (ix2 b o)
      = peak (logit (cur3 x0 b) (cur2 x2) (cur1 x3) (proj (cur2 x1) (cur2 x4) (cur1 x5) b) (curCol x6) (x7 (ix1 (0 : Fin 1)))) := by
  unfold val_main_v16
  have hR : S64x2048x1.Reduces [1] S64x1 := by decide
  refine (Host.reduce_eq_fold_single FloatOps.maximumf _ _ reducesTo_S64x2048x1_S64x1_d1 hR h_S_ (ix2 b o)).trans ?_
  unfold peak
  refine congrArg₂ (fun z f => Finset.fold max z f (Finset.univ : Finset (Fin 2048))) rfl ?_
  funext k
  show val_main_v15 (F := Ideal) x0 x1 x2 x3 x4 x5 x6 x7 (hR.lift (ix2 b o) k) = _
  rw [lift_v16 hR b o k]
  exact logit_eq x0 x1 x2 x3 x4 x5 x6 x7 b _ o

/-- The reference's maximum, taken once more against minus infinity. -/
theorem peak_eq (b : Fin 64) (o : Fin 1) :
    val_main_v18 (F := Ideal) x0 x1 x2 x3 x4 x5 x6 x7 (ix2 b o)
      = peak (logit (cur3 x0 b) (cur2 x2) (cur1 x3) (proj (cur2 x1) (cur2 x4) (cur1 x5) b) (curCol x6) (x7 (ix1 (0 : Fin 1)))) := by
  rw [val_main_v18_apply, val_main_v17_apply, val_main_cst_0_apply, rowmax_eq]
  exact max_negInf _

/-- The exponential of a score's distance below the largest. -/
theorem expo_eq (b : Fin 64) (r : Fin 2048) (o : Fin 1) :
    val_main_v22 (F := Ideal) x0 x1 x2 x3 x4 x5 x6 x7 (ix3 b r o)
      = expo (logit (cur3 x0 b) (cur2 x2) (cur1 x3) (proj (cur2 x1) (cur2 x4) (cur1 x5) b) (curCol x6) (x7 (ix1 (0 : Fin 1)))) r := by
  rw [val_main_v22_apply, val_main_v21_apply, val_main_v20_apply, val_main_v19_apply]
  simp only [i_v20, i_v19, peak_eq, logit_eq, Ideal.subf_def, Ideal.hostUnary_exp_def]
  rfl

/-- The sum of the exponentials (the reference starts it from zero). -/
theorem denom_eq (b : Fin 64) (o : Fin 1) :
    val_main_v23 (F := Ideal) x0 x1 x2 x3 x4 x5 x6 x7 (ix2 b o)
      = ∑ r : Fin 2048, expo (logit (cur3 x0 b) (cur2 x2) (cur1 x3) (proj (cur2 x1) (cur2 x4) (cur1 x5) b) (curCol x6) (x7 (ix1 (0 : Fin 1)))) r := by
  rw [val_main_v23_apply, val_main_cst_1_apply]
  simp only [i_v23, expo_eq]
  show Ideal.ofBits .f32 0x00000000#32 + _ = _
  rw [Ideal.ofBits_zero_f32, zero_add]

/-- The attention weight of a region. -/
theorem probs_eq (b : Fin 64) (r : Fin 2048) (o : Fin 1) :
    val_main_v26 (F := Ideal) x0 x1 x2 x3 x4 x5 x6 x7 (ix3 b r o)
      = probs (cur3 x0) (cur2 x1) (cur2 x2) (cur1 x3) (cur2 x4) (cur1 x5) (curCol x6) (x7 (ix1 (0 : Fin 1))) b r := by
  rw [val_main_v26_apply, val_main_v25_apply, val_main_v24_apply]
  simp only [i_v25, i_v24, expo_eq, denom_eq, Ideal.hostDivf_def]
  rfl

/-- The pooled feature of a batch entry (the reference starts the sum from zero). -/
theorem pooled_eq (b : Fin 64) (d : Fin 1024) :
    val_main_v29 (F := Ideal) x0 x1 x2 x3 x4 x5 x6 x7 (ix2 b d)
      = pooled (cur3 x0) (cur2 x1) (cur2 x2) (cur1 x3) (cur2 x4) (cur1 x5) (curCol x6) (x7 (ix1 (0 : Fin 1))) b d := by
  rw [val_main_v29_apply, val_main_cst_2_apply]
  simp only [i_v29, val_main_v28_apply, val_main_v27_apply, i_v27, probs_eq, Ideal.mulf_def]
  show Ideal.ofBits .f32 0x00000000#32 + _ = _
  rw [Ideal.ofBits_zero_f32, zero_add]
  rfl

/-! ## The two results as whole arrays -/

theorem weights_arr : val_main_v26 (F := Ideal) x0 x1 x2 x3 x4 x5 x6 x7 = probsArr x0 x1 x2 x3 x4 x5 x6 x7 := by
  funext i
  obtain ⟨b, r, o, rfl⟩ : ∃ (b : Fin 64) (r : Fin 2048) (o : Fin 1), i = ix3 b r o := ⟨i 0, i 1, i 2, eq_ix3 i⟩
  exact probs_eq x0 x1 x2 x3 x4 x5 x6 x7 b r o

theorem pooled_arr : val_main_v29 (F := Ideal) x0 x1 x2 x3 x4 x5 x6 x7 = pooledArr x0 x1 x2 x3 x4 x5 x6 x7 := by
  funext i
  obtain ⟨b, d, rfl⟩ : ∃ (b : Fin 64) (d : Fin 1024), i = ix2 b d := ⟨i 0, i 1, eq_ix2 i⟩
  exact pooled_eq x0 x1 x2 x3 x4 x5 x6 x7 b d

end Cert.ReferenceIdeal.RefValue

end
-- ==== Proof.lean ====
/- Additive-attention pooling over regions: a kernel that handles one batch entry per grid point against its
   plain array reference, equal as functions on the extended reals.

   For each batch entry both programs project the query (q · Wy + by), score each of the 2048 regions
   (tanh (v · Wx + bx + qp) contracted with Wa, plus ba), turn the scores into weights by the softmax in its
   stable form (subtract the largest score, exponentiate, divide by the sum), and pool the regions'
   features with those weights. The kernel does it block by block, with matrix products into a zero
   accumulator, reductions of a column, and a product with the transposed weight column; the reference does it
   on whole arrays, with contractions, reductions over the region axis from zero and from minus infinity,
   and a product followed by a sum. On the extended reals these are the same expressions in the same
   association, so no law of arithmetic and nothing about the arguments is needed:
   Proof/Spec.lean states the function once, Proof/RefValue.lean reads the reference as it,
   Proof/KernelBody.lean the kernel's stored blocks, Proof/KernelValue.lean the kernel's two result arrays
   (over Proof/LibPlainDot.lean, a plain matrix product at an index). The idealized kernel is the printed
   kernel read at the ideal instance with nothing rewritten, so there is nothing to preserve. -/
import proofs.«148980_j36172214567562_2_alg».proof.Defs
import proofs.«148980_j36172214567562_2_alg».proof.Proof.Gen.Kernel
import proofs.«148980_j36172214567562_2_alg».proof.Proof.Gen.Kernel.Frame
import proofs.«148980_j36172214567562_2_alg».proof.Proof.Gen.KernelIdeal
import proofs.«148980_j36172214567562_2_alg».proof.Proof.Gen.KernelIdeal.Frame
import proofs.«148980_j36172214567562_2_alg».proof.Proof.Gen.ReferenceIdeal
import proofs.«148980_j36172214567562_2_alg».proof.Proof.Gen.Pre_finite_inputs
import proofs.«148980_j36172214567562_2_alg».proof.Proof.Gen.ReferenceIdeal.Run
import proofs.«148980_j36172214567562_2_alg».proof.Proof.Gen.ReferenceIdeal.Read
import proofs.«148980_j36172214567562_2_alg».proof.Proof.KernelValue
import proofs.«148980_j36172214567562_2_alg».proof.Proof.RefValue
import Idealize.ShloMosaic.Adequacy
import Idealize.ShloMosaic.Init

noncomputable section

namespace Cert.Proof

open Idealize.ShloMosaic Idealize.SL.Sem Cert.AttnPool

/-- The printed kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eight arguments both programs end with the pooled features and the
    attention weights of those arguments. -/
theorem algebraic : Cert.algebraic_KernelIdeal_ReferenceIdeal := by
  intro m ρ m' ρ' _ hagree
  refine ⟨fun c => pooledArr (Cert.KernelIdeal.PoolValue.a0 m c) (Cert.KernelIdeal.PoolValue.a1 m c) (Cert.KernelIdeal.PoolValue.a2 m c)
      (Cert.KernelIdeal.PoolValue.a3 m c) (Cert.KernelIdeal.PoolValue.a4 m c) (Cert.KernelIdeal.PoolValue.a5 m c)
      (Cert.KernelIdeal.PoolValue.a6 m c) (Cert.KernelIdeal.PoolValue.a7 m c),
    fun c => probsArr (Cert.KernelIdeal.PoolValue.a0 m c) (Cert.KernelIdeal.PoolValue.a1 m c) (Cert.KernelIdeal.PoolValue.a2 m c)
      (Cert.KernelIdeal.PoolValue.a3 m c) (Cert.KernelIdeal.PoolValue.a4 m c) (Cert.KernelIdeal.PoolValue.a5 m c)
      (Cert.KernelIdeal.PoolValue.a6 m c) (Cert.KernelIdeal.PoolValue.a7 m c),
    Cert.KernelIdeal.PoolValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v29_eq, Cert.ReferenceIdeal.RefValue.pooled_arr, h0, h1, h2, h3, h4, h5, h6, h7]
  · obtain ⟨h0, h1, h2, h3, h4, h5, h6, h7⟩ := hagree c
    rw [Cert.ReferenceIdeal.Read.val_main_v26_eq, Cert.ReferenceIdeal.RefValue.weights_arr, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
